-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384 : Shape := ⟨1, ![16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x16384 .f32) (main_arg1 : FVec F S16384 .f32) (main_arg2 : FVec F S16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4096x16384 : Shape := ⟨2, ![4096, 16384]⟩
abbrev S16384 : Shape := ⟨1, ![16384]⟩
abbrev S_ : Shape := ⟨0, ![]⟩
abbrev S1x16384 : Shape := ⟨2, ![1, 16384]⟩
abbrev S128x16384 : Shape := ⟨2, ![128, 16384]⟩
abbrev S64x16384 : Shape := ⟨2, ![64, 16384]⟩

abbrev nBuf : Space → Nat
  | .hbm => 15
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S1x16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S1x16384, .f32⟩
  | .hbm, ⟨14, _⟩ => ⟨S4096x16384, .f32⟩
  | .local _ .vmem, ⟨0, _⟩ => ⟨S128x16384, .f32⟩
  | .local _ .vmem, ⟨1, _⟩ => ⟨S128x16384, .f32⟩
  | .local _ .vmem, ⟨2, _⟩ => ⟨S1x16384, .f32⟩
  | .local _ .vmem, ⟨3, _⟩ => ⟨S1x16384, .f32⟩
  | .local _ .vmem, ⟨4, _⟩ => ⟨S128x16384, .f32⟩
  | .local _ .vmem, ⟨5, _⟩ => ⟨S128x16384, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c64_i32 : BitVec 32 := 64#32
  let v8 : BitVec 32 := Scalar.muli c0_i32 c64_i32
  v8
def k0_off1 (c0_i32 : BitVec 32) : Fin 2 → Nat :=
  let c64_i32 : BitVec 32 := 64#32
  let v8 : BitVec 32 := Scalar.muli c0_i32 c64_i32
  let v9 : BitVec 32 := v8
  let v10 : Index := Scalar.indexCast v9
  let c0_3 : Index := 0#32
  ![v10.toNat, 0]
def k0_mult2 : BitVec 32 :=
  let c1_i32_7 : BitVec 32 := 1#32
  let c64_i32_8 : BitVec 32 := 64#32
  let v28 : BitVec 32 := Scalar.muli c1_i32_7 c64_i32_8
  v28
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  shapeCasts_S16384_S1x16384 : S16384.ShapeCasts S1x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S1x16384_S64x16384 : S1x16384.Broadcasts S64x16384
  h_S64x16384 : 0 < S64x16384.numel
  rotates_S64x16384_d1 : S64x16384.Rotates 1 none
  hrank0 : 0 < grid0.rank
  k0_mult1_dvd : 64 ∣ k0_mult1.toNat
  k0_off1_inb : ∀ (r : Fin 2), ∀ a, (k0_off1 (BitVec.ofNat 32 r.val)) a + S64x16384.size a ≤ S128x16384.size a
  k0_mult2_dvd : 64 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S4096x16384.size a
  hwx0_0 : ∀ i : grid0.Coords, EltTy.bits .f32 = 32 ∨ (Rect.block (s := S4096x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16384.size a ≤ S4096x16384.size a
  hwx0_3 : ∀ i : grid0.Coords, EltTy.bits .f32 = 32 ∨ (Rect.block (s := S4096x16384) S128x16384.size (cc0_transform_3 i) (hinb0_3 i)).WholeWords (EltTy.packing .f32)

variable [Facts₀]

abbrev win0_0 : Pipeline.Window sig grid0 :=
  Pipeline.Window.ofSpec (Memref.whole main_arg0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S4096x16384 : Shape := ⟨2, ![4096, 16384]⟩
abbrev S16384 : Shape := ⟨1, ![16384]⟩
abbrev S_ : Shape := ⟨0, ![]⟩
abbrev S4096x1 : Shape := ⟨2, ![4096, 1]⟩
abbrev S4096x16383 : Shape := ⟨2, ![4096, 16383]⟩
abbrev S1x16384 : Shape := ⟨2, ![1, 16384]⟩

abbrev nBuf : Space → Nat
  | .hbm => 35
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S16384, .f32⟩
  | .hbm, ⟨3, _⟩ => ⟨S4096x16384, .i1⟩
  | .hbm, ⟨4, _⟩ => ⟨S4096x16384, .f32⟩
  | .hbm, ⟨5, _⟩ => ⟨S_, .f32⟩
  | .hbm, ⟨6, _⟩ => ⟨S4096x16384, .f32⟩
  | .hbm, ⟨7, _⟩ => ⟨S4096x16384, .i1⟩
  | .hbm, ⟨8, _⟩ => ⟨S4096x16384, .i1⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S4096x1, .f32⟩
  | .hbm, ⟨13, _⟩ => ⟨S4096x16383, .f32⟩
  | .hbm, ⟨14, _⟩ => ⟨S4096x16384, .f32⟩
  | .hbm, ⟨15, _⟩ => ⟨S4096x16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S1x16384, .f32⟩
  | .hbm, ⟨26, _⟩ => ⟨S4096x16384, .f32⟩
  | .hbm, ⟨27, _⟩ => ⟨S4096x16384, .i1⟩
  | .hbm, ⟨28, _⟩ => ⟨S1x16384, .f32⟩
  | .hbm, ⟨29, _⟩ => ⟨S4096x16384, .f32⟩
  | .hbm, ⟨30, _⟩ => ⟨S4096x16384, .i1⟩
  | .hbm, ⟨31, _⟩ => ⟨S4096x16384, .i1⟩
  | .hbm, ⟨32, _⟩ => ⟨S_, .f32⟩
  | .hbm, ⟨33, _⟩ => ⟨S4096x16384, .f32⟩
  | .hbm, ⟨34, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_call1_v0 : Ref sig .tc := ⟨.hbm, 10, rfl⟩
abbrev main_v3 : Ref sig .tc := ⟨.hbm, 11, rfl⟩
abbrev main_call2_v0 : Ref sig .tc := ⟨.hbm, 12, rfl⟩
abbrev main_call2_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_call3_v0 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  slices_S4096x16384_S4096x1_0_16383 : S4096x16384.Slices ![0, 16383] S4096x1
  slices_S4096x16384_S4096x16383_0_0 : S4096x16384.Slices ![0, 0] S4096x16383
  concatenates_S4096x1_S4096x16383_S4096x16384_d1 : Shape.Concatenates [S4096x1, S4096x16383] S4096x16384 1
  bcast_S_S16384 : S_.BroadcastsInDim S16384 (![] : Fin 0 → Fin S16384.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)

variable [Facts₀]

class Facts : Prop extends Facts₀ where

variable [Facts]
-- ==== Proof.Spec.lean ====
/-
  The function both programs compute, entry by entry, over the extended reals.

  Every row of the [4096, 16384] input is first cleaned: an entry that is not a number or is infinite
  becomes zero. The cleaned row is differenced against itself shifted one column to the right around the
  end (entry c minus entry c - 1, column 0 against column 16383). Column c carries a band
  [mean c - 4 * sqrt (var c), mean c + 4 * sqrt (var c)]; a cleaned entry whose difference falls strictly
  below or strictly above its column's band is replaced by zero, every other cleaned entry is kept.

  The comparisons, the selection and the constants are kept as the operations the two programs print, read
  at the extended reals: nothing here needs their values, only that both programs apply the same ones.
-/
import Idealize.ShloMosaic.PureOps.Ideal
import Idealize.ShloMosaic.Lib.ValueIdx

noncomputable section

namespace Cert.Despike

open Idealize.ShloMosaic Idealize.ShloMosaic.ValueIdx

/-- An entry that differs from itself or whose absolute value is +infinity reads as zero, any other as itself. -/
def clean (a : Ideal .f32) : Ideal .f32 :=
  Scalar.select (IntOp.ori (FloatOps.cmpf .one a a) (FloatOps.cmpf .oeq (FloatOps.absf a) (FloatOps.ofBits .f32 0x7F800000#32)))
    (FloatOps.ofBits .f32 0x00000000#32) a

/-- The same test spelt with the unordered comparison and the host's absolute value: over the extended reals
    the ordered and the unordered "not equal" are one comparison, and the two absolute values one function. -/
theorem clean_host (a : Ideal .f32) :
    Scalar.select (IntOp.ori (FloatOps.cmpf .une a a) (FloatOps.cmpf .oeq (FloatOps.hostAbsf a) (FloatOps.ofBits .f32 0x7F800000#32)))
      (FloatOps.ofBits .f32 0x00000000#32) a = clean a := rfl

/-- The entry `a` with left neighbour `b` and band [lo, up]: zero when a - b < lo or a - b > up, else `a`. -/
def keep (a b lo up : Ideal .f32) : Ideal .f32 :=
  Scalar.select (IntOp.ori (FloatOps.cmpf .olt (FloatOps.subf a b) lo) (FloatOps.cmpf .ogt (FloatOps.subf a b) up))
    (FloatOps.ofBits .f32 0x00000000#32) a

/-- The band's lower end: mean - 4 * sqrt var. -/
def lower (mean var : Ideal .f32) : Ideal .f32 :=
  FloatOps.subf mean (FloatOps.mulf (FloatOps.ofBits .f32 0x40800000#32) (FloatOps.hostUnary .sqrt var))

/-- The band's upper end: mean + 4 * sqrt var. -/
def upper (mean var : Ideal .f32) : Ideal .f32 :=
  FloatOps.addf mean (FloatOps.mulf (FloatOps.ofBits .f32 0x40800000#32) (FloatOps.hostUnary .sqrt var))

/-- The column to the left of `q`, around the end: column 16383 for column 0. -/
def prevCol (q : Fin 16384) : Fin 16384 := ⟨(q.val + 16383) % 16384, Nat.mod_lt _ (by decide)⟩

theorem prevCol_zero (q : Fin 16384) (h : q.val = 0) : (prevCol q).val = 16383 := by
  show (q.val + 16383) % 16384 = 16383
  rw [h]

theorem prevCol_pos (q : Fin 16384) (h : 0 < q.val) : (prevCol q).val = q.val - 1 := by
  show (q.val + 16383) % 16384 = q.val - 1
  have hq : q.val < 16384 := q.isLt
  omega

/-- The result: entry (r, q) from the cleaned entry, its cleaned left neighbour and column q's band. -/
def result (x : (⟨2, ![4096, 16384]⟩ : Shape).Idx → Ideal .f32) (mean var : (⟨1, ![16384]⟩ : Shape).Idx → Ideal .f32) :
    (⟨2, ![4096, 16384]⟩ : Shape).Idx → Ideal .f32 := fun i =>
  keep (clean (x i)) (clean (x (ix2 (i 0) (prevCol (i 1)))))
    (lower (mean (ix1 (i 1))) (var (ix1 (i 1)))) (upper (mean (ix1 (i 1))) (var (ix1 (i 1))))

theorem result_apply (x : (⟨2, ![4096, 16384]⟩ : Shape).Idx → Ideal .f32) (mean var : (⟨1, ![16384]⟩ : Shape).Idx → Ideal .f32)
    (r : Fin 4096) (q : Fin 16384) :
    result x mean var (ix2 r q) = keep (clean (x (ix2 r q))) (clean (x (ix2 r (prevCol q))))
      (lower (mean (ix1 q)) (var (ix1 q))) (upper (mean (ix1 q)) (var (ix1 q))) := rfl

end Cert.Despike

end
-- ==== Proof.Chunk.lean ====
/-
  One chunk of 64 rows through the kernel's arithmetic, read at an entry.

  The body handles its 128-row block as two chunks of 64 rows with the same operations: clean the chunk,
  rotate the cleaned chunk one lane to the right around the end, subtract, compare the difference with the
  two band rows spread down the 64 rows, and zero the entries outside the band. Entry (p, q) of the outcome
  depends on the chunk's entries (p, q) and (p, q - 1 around the end) and on column q of the two band rows:
  it is `keep` of the two cleaned entries and the band. The first chunk's outcome is printed as one term,
  the second chunk's as a term over four named intermediate values; both read the same.
-/
import proofs.«129440_j44667659878981_2_alg».proof.Proof.Gen.KernelIdeal.Skeleton
import proofs.«129440_j44667659878981_2_alg».proof.Proof.Spec
import Idealize.ShloMosaic.Lib.KernelVsHost
import Idealize.ShloMosaic.Lib.ValueLayout

noncomputable section

namespace Cert.Despike

open Cert.KernelIdeal Cert.KernelIdeal.Gen Idealize.ShloMosaic Idealize.ShloMosaic.ValueIdx

/-- A chunk rotated one lane to the right reads, at (p, q), the chunk's entry in the column to the left of q
    around the end. -/
theorem rotate_apply (Y : S64x16384.Idx → Ideal .f32) (p : Fin 64) (q : Fin 16384) :
    dynamicRotate 1 1#32 none Y rotates_S64x16384_d1 (ix2 p q) = Y (ix2 p (prevCol q)) := by
  refine dynamicRotate_apply (1 : Fin 2) 1#32 Y rotates_S64x16384_d1 (ix2 p q) (ix2 p (prevCol q)) fun b => ?_
  match b with
  | ⟨0, _⟩ => rfl
  | ⟨1, _⟩ =>
    show (q.val + 16383) % 16384 = (q.val + 16384 - (1#32 : BitVec 32).toNat % 16384) % 16384
    have h1 : (1#32 : BitVec 32).toNat % 16384 = 1 := by decide
    rw [h1]
    have hq : q.val < 16384 := q.isLt
    omega

/-- A band row spread down the 64 rows reads, at (p, q), the row's column q. -/
theorem spread_apply (v : S1x16384.Idx → Ideal .f32) (p : Fin 64) (q : Fin 16384) :
    broadcastTo S64x16384 (shapeCast S1x16384 (shapeCast S1x16384 v shapeCasts_S1x16384_S1x16384) shapeCasts_S1x16384_S1x16384)
      broadcasts_S1x16384_S64x16384 (ix2 p q) = v (ix2 (0 : Fin 1) q) := by
  rw [shapeCast_self, shapeCast_self]
  exact broadcastTo_1b_ab_apply v broadcasts_S1x16384_S64x16384 p q

theorem lowRow_apply (lo : Vec Ideal S1x16384 .f32) (p : Fin 64) (q : Fin 16384) :
    k0_pay2 (F := Ideal) lo (ix2 p q) = lo (ix2 (0 : Fin 1) q) := spread_apply lo p q

theorem highRow_apply (up : Vec Ideal S1x16384 .f32) (p : Fin 64) (q : Fin 16384) :
    k0_pay3 (F := Ideal) up (ix2 p q) = up (ix2 (0 : Fin 1) q) := spread_apply up p q

/-- The cleaned chunk, entry by entry. -/
theorem cleaned_eq (X : Vec Ideal S64x16384 .f32) : k0_pay5 (F := Ideal) X = fun i => clean (X i) := rfl

/-- The first chunk's outcome at (p, q). -/
theorem firstChunk_apply (lo up : Vec Ideal S1x16384 .f32) (X : Vec Ideal S64x16384 .f32) (p : Fin 64) (q : Fin 16384) :
    k0_pay4 (F := Ideal) lo up X (ix2 p q)
      = keep (clean (X (ix2 p q))) (clean (X (ix2 p (prevCol q)))) (lo (ix2 (0 : Fin 1) q)) (up (ix2 (0 : Fin 1) q)) := by
  have hr := rotate_apply (fun i => clean (X i)) p q
  have hl := lowRow_apply lo p q
  have hu := highRow_apply up p q
  show keep (clean (X (ix2 p q))) (dynamicRotate 1 1#32 none (fun i => clean (X i)) rotates_S64x16384_d1 (ix2 p q))
      (k0_pay2 (F := Ideal) lo (ix2 p q)) (k0_pay3 (F := Ideal) up (ix2 p q)) = _
  rw [hr, hl, hu]

/-- The second chunk's outcome at (p, q): the same function of the chunk. -/
theorem secondChunk_apply (lo up : Vec Ideal S1x16384 .f32) (X : Vec Ideal S64x16384 .f32) (p : Fin 64) (q : Fin 16384) :
    k0_pay1 (F := Ideal) (k0_pay2 lo) (k0_pay3 up) (k0_pay5 X) (k0_pay6 X) (ix2 p q)
      = keep (clean (X (ix2 p q))) (clean (X (ix2 p (prevCol q)))) (lo (ix2 (0 : Fin 1) q)) (up (ix2 (0 : Fin 1) q)) := by
  have hr := rotate_apply (fun i => clean (X i)) p q
  have hl := lowRow_apply lo p q
  have hu := highRow_apply up p q
  show keep (clean (X (ix2 p q))) (dynamicRotate 1 1#32 none (fun i => clean (X i)) rotates_S64x16384_d1 (ix2 p q))
      (k0_pay2 (F := Ideal) lo (ix2 p q)) (k0_pay3 (F := Ideal) up (ix2 p q)) = _
  rw [hr, hl, hu]

end Cert.Despike

end
-- ==== Proof.Block.lean ====
/-
  What the body leaves in the output block: one function of the input block and the two band rows.

  The body stores the first chunk's outcome into rows 0..63 of the output block and the second chunk's into
  rows 64..127. Each chunk is the input block's rows at the same offset, so entry (o + p, q) of the output
  block depends on the input block's entries (o + p, q) and (o + p, q - 1 around the end) and on column q
  of the band rows, whichever chunk row o + p falls in: both stores are restrictions of ONE function of the
  block, `block`, and the two stores together cover the block, so the block is that function.
-/
import proofs.«129440_j44667659878981_2_alg».proof.Proof.Gen.KernelIdeal.Frame
import proofs.«129440_j44667659878981_2_alg».proof.Proof.Chunk
import Idealize.ShloMosaic.Lib.Pipeline.Value
import Idealize.ShloMosaic.Lib.Tactic

set_option maxRecDepth 16384

noncomputable section

namespace Cert.Despike

open Cert.KernelIdeal Cert.KernelIdeal.Gen Idealize.ShloMosaic Idealize.ShloMosaic.ValueIdx Idealize.ShloMosaic.Tactic
open Idealize.SL.Sem

/-- The output block as a function of the input block `x` and the band rows `lo`, `up`: entry (p, q) from the
    cleaned entry, its cleaned left neighbour around the end, and column q of the two rows. -/
def block (x : Vec Ideal S128x16384 .f32) (lo up : Vec Ideal S1x16384 .f32) : S128x16384.Idx → Ideal .f32 := fun y =>
  keep (clean (x y)) (clean (x (ix2 (y 0) (prevCol (y 1))))) (lo (ix2 (0 : Fin 1) (y 1))) (up (ix2 (0 : Fin 1) (y 1)))

theorem block_apply (x : Vec Ideal S128x16384 .f32) (lo up : Vec Ideal S1x16384 .f32) (p : Fin 128) (q : Fin 16384) :
    block x lo up (ix2 p q)
      = keep (clean (x (ix2 p q))) (clean (x (ix2 p (prevCol q)))) (lo (ix2 (0 : Fin 1) q)) (up (ix2 (0 : Fin 1) q)) := rfl

theorem zeros2 : (![0, 0] : Fin 2 → Nat) = fun _ => 0 := funext fun a => by fin_cases a <;> rfl

/-- Entry (p, q) of the 64 rows from row `o` on sits at (o + p, q) of the block. -/
theorem chunk_emb (o : Nat) (ho : o + 64 ≤ 128)
    (inb : ∀ a, (![o, 0] : Fin 2 → Nat) a + (![64, 16384] : Fin 2 → Nat) a ≤ S128x16384.size a) (p : Fin 64) (q : Fin 16384) :
    (Rect.unit (s := S128x16384) ![o, 0] ![64, 16384] inb).emb (ix2 p q)
      = ix2 (⟨o + p.val, by have := p.isLt; omega⟩ : Fin 128) q := by
  funext a
  apply Fin.ext
  match a with
  | ⟨0, _⟩ => show o + 1 * p.val = o + p.val; omega
  | ⟨1, _⟩ => show 0 + 1 * q.val = q.val; omega

/-- The chunk's outcome, from the block's rows from `o` on, is `block` on those rows. -/
theorem keep_chunk (o : Nat) (ho : o + 64 ≤ 128)
    (inb : ∀ a, (![o, 0] : Fin 2 → Nat) a + (![64, 16384] : Fin 2 → Nat) a ≤ S128x16384.size a)
    (x : Vec Ideal S128x16384 .f32) (lo up : Vec Ideal S1x16384 .f32) (p : Fin 64) (q : Fin 16384) :
    keep (clean (View.ld (Val := Elt Ideal) (e' := EltTy.f32) x (Rect.unit (s := S128x16384) ![o, 0] ![64, 16384] inb) (ix2 p q)))
        (clean (View.ld (Val := Elt Ideal) (e' := EltTy.f32) x (Rect.unit (s := S128x16384) ![o, 0] ![64, 16384] inb) (ix2 p (prevCol q))))
        (lo (ix2 (0 : Fin 1) q)) (up (ix2 (0 : Fin 1) q))
      = block x lo up ((Rect.unit (s := S128x16384) ![o, 0] ![64, 16384] inb).emb (ix2 p q)) := by
  have e1 : View.ld (Val := Elt Ideal) (e' := EltTy.f32) x (Rect.unit (s := S128x16384) ![o, 0] ![64, 16384] inb) (ix2 p q)
      = x (ix2 (⟨o + p.val, by have := p.isLt; omega⟩ : Fin 128) q) := congrArg x (chunk_emb o ho inb p q)
  have e2 : View.ld (Val := Elt Ideal) (e' := EltTy.f32) x (Rect.unit (s := S128x16384) ![o, 0] ![64, 16384] inb) (ix2 p (prevCol q))
      = x (ix2 (⟨o + p.val, by have := p.isLt; omega⟩ : Fin 128) (prevCol q)) := congrArg x (chunk_emb o ho inb p (prevCol q))
  rw [e1, e2, chunk_emb o ho inb p q, block_apply]

/-- The store into rows 0..63 writes `block` there. -/
theorem firstStore (inb : ∀ a, (![0, 0] : Fin 2 → Nat) a + (![64, 16384] : Fin 2 → Nat) a ≤ S128x16384.size a)
    (x : Vec Ideal S128x16384 .f32) (lo up : Vec Ideal S1x16384 .f32) (y : (⟨2, ![64, 16384]⟩ : Shape).Idx) :
    k0_pay4 (F := Ideal) lo up (View.ld (Val := Elt Ideal) (e' := EltTy.f32) x (Rect.unit (s := S128x16384) ![0, 0] ![64, 16384] inb)) y
      = block x lo up ((Rect.unit (s := S128x16384) ![0, 0] ![64, 16384] inb).emb y) := by
  obtain ⟨p, q, rfl⟩ : ∃ (p : Fin 64) (q : Fin 16384), y = ix2 p q := ⟨y 0, y 1, eq_ix2 y⟩
  rw [firstChunk_apply]
  exact keep_chunk 0 (by decide) inb x lo up p q

/-- The store into rows 64..127 writes `block` there. -/
theorem secondStore (inb : ∀ a, (![64, 0] : Fin 2 → Nat) a + (![64, 16384] : Fin 2 → Nat) a ≤ S128x16384.size a)
    (x : Vec Ideal S128x16384 .f32) (lo up : Vec Ideal S1x16384 .f32) (y : (⟨2, ![64, 16384]⟩ : Shape).Idx) :
    k0_pay1 (F := Ideal) (k0_pay2 lo) (k0_pay3 up) (k0_pay5 (View.ld (Val := Elt Ideal) (e' := EltTy.f32) x (Rect.unit (s := S128x16384) ![64, 0] ![64, 16384] inb)))
        (k0_pay6 (View.ld (Val := Elt Ideal) (e' := EltTy.f32) x (Rect.unit (s := S128x16384) ![64, 0] ![64, 16384] inb))) y
      = block x lo up ((Rect.unit (s := S128x16384) ![64, 0] ![64, 16384] inb).emb y) := by
  obtain ⟨p, q, rfl⟩ : ∃ (p : Fin 64) (q : Fin 16384), y = ix2 p q := ⟨y 0, y 1, eq_ix2 y⟩
  rw [secondChunk_apply]
  exact keep_chunk 64 (by decide) inb x lo up p q

/-- What the body leaves in the output's staging buffer, whatever buffers it is run on: `block` of the input block
    and the two band rows. -/
theorem body_eq (c : Dev nD) (i : grid0.Coords) (a1 : Memref sig .tc .vmem S128x16384 .f32) (h1 : a1.IsWhole)
    (a2 : Memref sig .tc .vmem S1x16384 .f32) (h2 : a2.IsWhole) (a3 : Memref sig .tc .vmem S1x16384 .f32) (h3 : a3.IsWhole)
    (a4 : Memref sig .tc .vmem S128x16384 .f32) (h4 : a4.IsWhole)
    (x0 : Vec Ideal S128x16384 .f32) (x1 x2 : Vec Ideal S1x16384 .f32) :
    out0_A_3 (F := Ideal) c i a1 h1 a2 h2 a3 h3 a4 h4 x0 x1 x2 = block x0 x1 x2 := by
  unfold out0_A_3
  rw [View.read_writes_eq_canon _ _ _ (cover0_A_3 c i a1 h1 a2 h2 a3 h3 a4 h4 x0 x1 x2)]
  funext y
  refine View.canon_apply_of_pieces (block x0 x1 x2) _ ?_ y (cover0_A_3 c i a1 h1 a2 h2 a3 h3 a4 h4 x0 x1 x2 y)
  unfold kernelRun0_A
  dsimp only
  sl_unfold_words
  simp only [View.readAt_eq_ld, h1.read_unread, h2.read_unread, h3.read_unread, View.ld_unit_zero (S := S1x16384) zeros2]
  intro pc hpc
  simp only [List.mem_cons, List.not_mem_nil, or_false] at hpc
  rcases hpc with rfl | rfl
  · intro y'; exact secondStore _ x0 x1 x2 y'
  · intro y'; exact firstStore _ x0 x1 x2 y'

end Cert.Despike

end
-- ==== Proof.KernelValue.lean ====
/-
  The kernel's result array is `result` of its three arguments.

  Before the region the host computes the two band vectors, mean minus and mean plus 4 * sqrt var, and lays each as a
  [1, 16384] row; the region also gets its own copy of the input array to write its result over. Grid point
  t works on rows 128 t .. 128 t + 127: its input block is those rows of the input array, the two band rows
  are the whole rows at every point, and what it writes back is `block` of these (the body's two stores).
  Since `block` and `result` read the same two entries of a row and the same column of the band, the block
  written back is rows 128 t .. 128 t + 127 of `result`; the 32 blocks tile the array (row i belongs to
  point i / 128), so the array after the run is `result`.
-/
import proofs.«129440_j44667659878981_2_alg».proof.Proof.Gen.KernelIdeal.Value
import proofs.«129440_j44667659878981_2_alg».proof.Proof.Block
import Idealize.ShloMosaic.Lib.ValueLayout
import Idealize.ShloMosaic.Lib.StableHlo.Run

set_option maxRecDepth 16384

noncomputable section

namespace Cert.Despike.KernelSide

open Cert.Despike Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-! ## The band rows as the region finds them -/

/-- The lower band row: the vector mean - 4 * sqrt var laid as one row. -/
theorem lowRow_eq (c : Dev nD) : (V m c main_v4 : S1x16384.Idx → Ideal .f32)
    = shapeCast S1x16384 (subf (m ((c : Thread nD τ).loc main_arg1))
        (mulf (broadcastInDim S16384 ![] bcast_S_S16384 (constant (F := Ideal) S_ .f32 0x40800000#32))
          (Host.sqrt (m ((c : Thread nD τ).loc main_arg2))))) shapeCasts_S16384_S1x16384 := by
  dsimp only [Gen.V, Gen.hostOps0]; after_results; rfl

/-- The upper band row: the vector mean + 4 * sqrt var laid as one row. -/
theorem highRow_eq (c : Dev nD) : (V m c main_v8 : S1x16384.Idx → Ideal .f32)
    = shapeCast S1x16384 (addf (m ((c : Thread nD τ).loc main_arg1))
        (mulf (broadcastInDim S16384 ![] bcast_S_S16384 (constant (F := Ideal) S_ .f32 0x40800000#32))
          (Host.sqrt (m ((c : Thread nD τ).loc main_arg2))))) shapeCasts_S16384_S1x16384 := by
  dsimp only [Gen.V, Gen.hostOps0]; after_results; rfl

theorem lowRow_apply (c : Dev nD) (q : Fin 16384) :
    (V m c main_v4 : S1x16384.Idx → Ideal .f32) (ix2 (0 : Fin 1) q)
      = lower (m ((c : Thread nD τ).loc main_arg1) (ix1 q)) (m ((c : Thread nD τ).loc main_arg2) (ix1 q)) := by
  rw [lowRow_eq, shapeCast_a_1a_apply]
  rfl

theorem highRow_apply (c : Dev nD) (q : Fin 16384) :
    (V m c main_v8 : S1x16384.Idx → Ideal .f32) (ix2 (0 : Fin 1) q)
      = upper (m ((c : Thread nD τ).loc main_arg1) (ix1 q)) (m ((c : Thread nD τ).loc main_arg2) (ix1 q)) := by
  rw [highRow_eq, shapeCast_a_1a_apply]
  rfl

/-! ## A block of 128 rows against the whole array -/

/-- If `xb` is rows 128 b .. 128 b + 127 of `X` and `lo`, `up` are the band rows of `mean`, `var`, then `block` at an
    entry is `result` at the entry 128 b rows further down. -/
theorem block_eq_result (X : Vec Ideal S4096x16384 .f32) (mean var : Vec Ideal S16384 .f32)
    (xb : Vec Ideal S128x16384 .f32) (lo up : Vec Ideal S1x16384 .f32) (b : Nat)
    (hx : ∀ (y : S128x16384.Idx) (k : S4096x16384.Idx), (k 0).val = b * 128 + (y 0).val → (k 1).val = (y 1).val → xb y = X k)
    (hlo : ∀ q : Fin 16384, lo (ix2 (0 : Fin 1) q) = lower (mean (ix1 q)) (var (ix1 q)))
    (hup : ∀ q : Fin 16384, up (ix2 (0 : Fin 1) q) = upper (mean (ix1 q)) (var (ix1 q)))
    (j : S128x16384.Idx) (i : S4096x16384.Idx) (h0 : (i 0).val = b * 128 + (j 0).val) (h1 : (i 1).val = (j 1).val) :
    block xb lo up j = result X mean var i := by
  have hi1 : (i 1 : Fin 16384) = (j 1 : Fin 16384) := Fin.ext h1
  show keep (clean (xb j)) (clean (xb (ix2 (j 0) (prevCol (j 1))))) (lo (ix2 (0 : Fin 1) (j 1))) (up (ix2 (0 : Fin 1) (j 1)))
    = keep (clean (X i)) (clean (X (ix2 (i 0) (prevCol (i 1)))))
        (lower (mean (ix1 (i 1))) (var (ix1 (i 1)))) (upper (mean (ix1 (i 1))) (var (ix1 (i 1))))
  have hl : lo (ix2 (0 : Fin 1) (j 1)) = lower (mean (ix1 (i 1))) (var (ix1 (i 1))) :=
    (hlo (j 1)).trans (congrArg (fun z : Fin 16384 => lower (mean (ix1 z)) (var (ix1 z))) hi1.symm)
  have hu : up (ix2 (0 : Fin 1) (j 1)) = upper (mean (ix1 (i 1))) (var (ix1 (i 1))) :=
    (hup (j 1)).trans (congrArg (fun z : Fin 16384 => upper (mean (ix1 z)) (var (ix1 z))) hi1.symm)
  have ha : xb j = X i := hx j i h0 h1
  have hb : xb (ix2 (j 0) (prevCol (j 1))) = X (ix2 (i 0) (prevCol (i 1))) :=
    hx (ix2 (j 0) (prevCol (j 1))) (ix2 (i 0) (prevCol (i 1))) h0 (congrArg (fun z : Fin 16384 => (prevCol z).val) hi1)
  exact (congrArg₂ (fun a b => keep (clean a) (clean b) (lo (ix2 (0 : Fin 1) (j 1))) (up (ix2 (0 : Fin 1) (j 1)))) ha hb).trans
    (congrArg₂ (fun a b => keep (clean (X i)) (clean (X (ix2 (i 0) (prevCol (i 1))))) a b) hl hu)

/-! ## What a point writes back, and the array after the run -/

/-- The printed index maps over the grid: the input block and the output block of a point are the same rows,
    full width; the band rows are the whole rows at every point. -/
theorem idx_facts : ∀ t : Fin cfg0.N,
    win0_0.index t (0 : Fin 2) = win0_3.index t (0 : Fin 2) ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every one of the 32 row blocks is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- The kernel's result array as a function of its arguments. -/
abbrev out (c : Dev nD) : S4096x16384.Idx → Elt Ideal .f32 :=
  result (m ((c : Thread nD τ).loc main_arg0)) (m ((c : Thread nD τ).loc main_arg1)) (m ((c : Thread nD τ).loc main_arg2))

/-- What point `t` writes back is block `t` of `result` of the arguments. -/
theorem flushed_eq (c : Dev nD) (t : Fin cfg0.N) :
    (dats m 0 c).flushed 3 t = ((cfg0.win 3).blk t).view.read (Elt Ideal) (out m c) := by
  rw [Cert.KernelIdeal.Value.flushed3_A, body_eq]
  obtain ⟨e0, e1, e2, e3, e4, e5, e6⟩ := idx_facts t
  funext j
  show block (iblk m c 0 t) (iblk m c 1 t) (iblk m c 2 t) j = out m c (((cfg0.win 3).blk t).view.emb j)
  refine block_eq_result (m ((c : Thread nD τ).loc main_arg0)) (m ((c : Thread nD τ).loc main_arg1)) (m ((c : Thread nD τ).loc main_arg2))
    (iblk m c 0 t) (iblk m c 1 t) (iblk m c 2 t) (win0_3.index t (0 : Fin 2)) ?_ ?_ ?_ j _ ?_ ?_
  · intro y k hk0 hk1
    show V m c main_arg0 (((cfg0.win 0).blk t).view.emb y) = _
    rw [V_main_arg0]
    refine congrArg _ (funext fun a => Fin.ext ?_)
    match a with
    | ⟨0, _⟩ => show win0_0.index t (0 : Fin 2) * 128 + 1 * (y 0).val = (k 0).val; rw [hk0, e0]; omega
    | ⟨1, _⟩ => show win0_0.index t (1 : Fin 2) * 16384 + 1 * (y 1).val = (k 1).val; rw [hk1, e1]; omega
  · intro q
    show V m c main_v4 (((cfg0.win 1).blk t).view.emb (ix2 (0 : Fin 1) q)) = _
    have he : ((cfg0.win 1).blk t).view.emb (ix2 (0 : Fin 1) q) = ix2 (0 : Fin 1) q := funext fun a => Fin.ext (by
      match a with
      | ⟨0, _⟩ => show win0_1.index t (0 : Fin 2) * 1 + 1 * 0 = 0; rw [e3]
      | ⟨1, _⟩ => show win0_1.index t (1 : Fin 2) * 16384 + 1 * q.val = q.val; rw [e4]; omega)
    rw [he]
    exact lowRow_apply m c q
  · intro q
    show V m c main_v8 (((cfg0.win 2).blk t).view.emb (ix2 (0 : Fin 1) q)) = _
    have he : ((cfg0.win 2).blk t).view.emb (ix2 (0 : Fin 1) q) = ix2 (0 : Fin 1) q := funext fun a => Fin.ext (by
      match a with
      | ⟨0, _⟩ => show win0_2.index t (0 : Fin 2) * 1 + 1 * 0 = 0; rw [e5]
      | ⟨1, _⟩ => show win0_2.index t (1 : Fin 2) * 16384 + 1 * q.val = q.val; rw [e6]; omega)
    rw [he]
    exact highRow_apply m c q
  · show win0_3.index t (0 : Fin 2) * 128 + 1 * (j 0).val = win0_3.index t (0 : Fin 2) * 128 + (j 0).val; omega
  · show win0_3.index t (1 : Fin 2) * 16384 + 1 * (j 1).val = (j 1).val; rw [e2]; omega

/-- An index of the array is in point `t`'s block iff each coordinate is in the block's range on its axis. -/
theorem mem_blk (t : Fin cfg0.N) (i : S4096x16384.Idx) :
    i ∈ ((cfg0.win 3).blk t).view.set ↔ ∀ a : Fin 2, win0_3.index t a * S128x16384.size a ≤ (i a).val
      ∧ (i a).val < win0_3.index t a * S128x16384.size a + S128x16384.size a := by
  show i ∈ ((View.whole main_v9).slice (win0_3.rect t)).set ↔ _
  rw [View.set_slice_whole, Rect.mem_set_unit]
  exact Iff.rfl

/-- Row i of the array lies in the block of the point with block index i / 128. -/
theorem cover (i : S4096x16384.Idx) : ∃ t : Fin cfg0.N, (cfg0.win 3).flush t = true ∧ i ∈ ((cfg0.win 3).blk t).view.set := by
  have hi0 : (i 0).val < 4096 := (i 0).isLt
  have hi1 : (i 1).val < 16384 := (i 1).isLt
  obtain ⟨t, ht⟩ := idx_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 16384 ≤ (i 1).val ∧ (i 1).val < win0_3.index t (1 : Fin 2) * 16384 + 16384; omega

/-- The result array after the run. -/
theorem final (c : Dev nD) : (dats m 0 c).arrAt 3 cfg0.N = out m c :=
  (dats m 0 c).arrAt_eq_of_cover 3 (out m c) (fun t _ => flushed_eq m c t) cover

/-- The kernel's run: every weakly fair execution ends with the result array at `result` of the arguments and the
    arguments as they were. -/
theorem run : θ_run defs (onTc (τ := τ) (main (F := Ideal))) ⟨m, fun _ => 0, ρ⟩ fun r => ∀ c : Dev nD,
      r.2.mem ((c : Thread nD τ).loc main_v9) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Despike.KernelSide

end
-- ==== Proof.Reference.lean ====
/-
  The reference computes `result`.

  The reference cleans the whole array, builds the shifted array by joining the cleaned array's last column
  in front of its first 16383 columns, subtracts, spreads the two band vectors over the rows and selects.
  Read at entry (r, q): the joined array's column 0 is the cleaned array's column 16383 and its column
  q >= 1 the cleaned array's column q - 1, which is the column to the left of q around the end; everything
  else is entry by entry.
-/
import proofs.«129440_j44667659878981_2_alg».proof.Proof.Gen.ReferenceIdeal.Read
import proofs.«129440_j44667659878981_2_alg».proof.Proof.Spec
import Idealize.ShloMosaic.Lib.Pipeline.Value

noncomputable section

namespace Cert.Despike

open Cert.ReferenceIdeal Cert.ReferenceIdeal.Read Idealize.ShloMosaic Idealize.ShloMosaic.ValueIdx

/-- The reference's cleaned array at an entry. -/
theorem refClean_apply (x0 : (⟨S4096x16384, .f32⟩ : BufTy).Contents (Elt Ideal)) (i : S4096x16384.Idx) :
    val_main_v3 (F := Ideal) x0 i = clean (x0 i) := by
  rw [val_main_v3_apply, val_main_v2_apply, val_main_v0_apply, val_main_v1_apply, val_main_call0_v0_apply,
    val_main_call0_v1_apply, val_main_call0_cst_apply, val_main_call1_v0_apply, val_main_cst_apply]
  exact clean_host (x0 i)

/-- The reference's shifted array at (r, q): the cleaned entry in the column to the left of q around the end. -/
theorem refShifted_apply (x0 : (⟨S4096x16384, .f32⟩ : BufTy).Contents (Elt Ideal)) (r : Fin 4096) (q : Fin 16384) :
    val_main_v4 (F := Ideal) x0 (ix2 r q) = clean (x0 (ix2 r (prevCol q))) := by
  unfold val_main_v4
  have hlt : q.val < 16384 := q.isLt
  by_cases hq : q.val = 0
  · refine (concatenate_pair_apply_left (t := S4096x16384) (s₁ := S4096x1) (s₂ := S4096x16383) (1 : Fin 2) _ _
      Cert.ReferenceIdeal.Gen.concatenates_S4096x1_S4096x16383_S4096x16384_d1 (ix2 r q) rfl (ix2 r (0 : Fin 1)) (fun b => ?_)).trans ?_
    · match b with
      | ⟨0, _⟩ => rfl
      | ⟨1, _⟩ => show (0 : Nat) = q.val; omega
    · rw [val_main_call2_v0_apply, refClean_apply]
      refine congrArg (fun k => clean (x0 k)) (funext fun a => Fin.ext ?_)
      match a with
      | ⟨0, _⟩ => rfl
      | ⟨1, _⟩ => show 16383 + 0 = (prevCol q).val; rw [prevCol_zero q hq]
  · have hq' : 0 < q.val := Nat.pos_of_ne_zero hq
    refine (concatenate_pair_apply_right (t := S4096x16384) (s₁ := S4096x1) (s₂ := S4096x16383) (1 : Fin 2) _ _
      Cert.ReferenceIdeal.Gen.concatenates_S4096x1_S4096x16383_S4096x16384_d1 (ix2 r q) rfl rfl (ix2 r (⟨q.val - 1, by omega⟩ : Fin 16383))
      (fun b hb => ?_) ?_).trans ?_
    · match b with
      | ⟨0, _⟩ => rfl
      | ⟨1, _⟩ => exact absurd rfl hb
    · show q.val - 1 + 1 = q.val; omega
    · rw [val_main_call2_v1_apply, refClean_apply]
      refine congrArg (fun k => clean (x0 k)) (funext fun a => Fin.ext ?_)
      match a with
      | ⟨0, _⟩ => rfl
      | ⟨1, _⟩ => show q.val - 1 = (prevCol q).val; rw [prevCol_pos q hq']

/-- The reference's result array is `result` of its three arguments. -/
theorem reference_eq (x0 : (⟨S4096x16384, .f32⟩ : BufTy).Contents (Elt Ideal)) (x1 x2 : (⟨S16384, .f32⟩ : BufTy).Contents (Elt Ideal)) :
    val_main_v20 (F := Ideal) x0 x1 x2 = result x0 x1 x2 := by
  funext i
  obtain ⟨r, q, rfl⟩ : ∃ (r : Fin 4096) (q : Fin 16384), i = ix2 r q := ⟨i 0, i 1, eq_ix2 i⟩
  have e13 : idx_main_v13 (idx_main_v14 (ix2 r q)) = ix1 q := funext fun a => Fin.ext (by match a with | ⟨0, _⟩ => rfl)
  have e16 : idx_main_v16 (idx_main_v17 (ix2 r q)) = ix1 q := funext fun a => Fin.ext (by match a with | ⟨0, _⟩ => rfl)
  rw [result_apply]
  simp only [val_main_v20_apply, val_main_v19_apply, val_main_v15_apply, val_main_v18_apply, val_main_v5_apply,
    val_main_v14_apply, val_main_v13_apply, val_main_v9_apply, val_main_v8_apply, val_main_v7_apply, val_main_cst_0_apply,
    val_main_v6_apply, val_main_v17_apply, val_main_v16_apply, val_main_v12_apply, val_main_v11_apply, val_main_v10_apply,
    val_main_cst_1_apply, val_main_call3_v0_apply, val_main_cst_2_apply, refClean_apply, refShifted_apply, e13, e16]
  rfl

end Cert.Despike

end
-- ==== Proof.lean ====
/-
  Each row of a [4096, 16384] array has its entries that are not finite numbers replaced by zero, is
  differenced against itself shifted one column to the right around the end, and has every entry whose
  difference falls outside its column's band, from mean minus 4 * sqrt var to mean plus 4 * sqrt var,
  replaced by zero.

  The kernel does this 128 rows at a time, every block holding its rows at full width so that the shift
  around the end stays inside the block, in two chunks of 64 rows, with the two band vectors computed once
  before the region; the reference does it on the whole array and spells the shift as the last column joined
  in front of the other 16383. Over the extended reals both are ONE function of the three arguments, entry
  by entry: `Cert.Despike.result` (Proof/Spec.lean). No law of arithmetic joins the two sides: the
  subtraction, the comparisons and the selections are the same operations on the same operands in the same
  order. What has to be shown is about positions and spellings only: that a rotation by one lane and the
  join of the last column before the others name the same left neighbour; that a row spread down a chunk
  and a vector spread over the array name the same band column; that the test "differs from itself", ordered
  in the kernel and unordered in the reference, is one test where every value is an extended real; and that
  the 32 blocks of 128 rows tile the array. The inputs' finiteness is never used.

  Proof/Spec.lean states the function. Proof/Chunk.lean reads one chunk's arithmetic at an entry,
  Proof/Block.lean shows the body's two stores are restrictions of one function of the block,
  Proof/KernelValue.lean carries the blocks to the whole array and states the kernel's run, and
  Proof/Reference.lean reads the reference's stages at an entry. The idealized kernel is the kernel's own
  text read over the extended reals (no operation was rewritten), so that conjunct is `True`.
-/
import proofs.«129440_j44667659878981_2_alg».proof.Defs
import proofs.«129440_j44667659878981_2_alg».proof.Proof.Gen.Kernel
import proofs.«129440_j44667659878981_2_alg».proof.Proof.Gen.Kernel.Skeleton
import proofs.«129440_j44667659878981_2_alg».proof.Proof.Gen.Kernel.Launch
import proofs.«129440_j44667659878981_2_alg».proof.Proof.Gen.Kernel.Points
import proofs.«129440_j44667659878981_2_alg».proof.Proof.Gen.Kernel.Frame
import proofs.«129440_j44667659878981_2_alg».proof.Proof.Gen.KernelIdeal
import proofs.«129440_j44667659878981_2_alg».proof.Proof.Gen.KernelIdeal.Skeleton
import proofs.«129440_j44667659878981_2_alg».proof.Proof.Gen.KernelIdeal.Launch
import proofs.«129440_j44667659878981_2_alg».proof.Proof.Gen.KernelIdeal.Points
import proofs.«129440_j44667659878981_2_alg».proof.Proof.Gen.KernelIdeal.Frame
import proofs.«129440_j44667659878981_2_alg».proof.Proof.Gen.KernelIdeal.Value
import proofs.«129440_j44667659878981_2_alg».proof.Proof.Gen.ReferenceIdeal
import proofs.«129440_j44667659878981_2_alg».proof.Proof.Gen.ReferenceIdeal.Run
import proofs.«129440_j44667659878981_2_alg».proof.Proof.Gen.ReferenceIdeal.Read
import proofs.«129440_j44667659878981_2_alg».proof.Proof.Gen.Pre_finite_inputs
import proofs.«129440_j44667659878981_2_alg».proof.Proof.KernelValue
import proofs.«129440_j44667659878981_2_alg».proof.Proof.Reference
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel read over the extended reals is the kernel's own text: nothing was rewritten. -/
theorem preserves : Cert.preserves_Kernel_KernelIdeal := trivial

/-- Over the extended reals, from memories that agree on the three arguments, the kernel's result array and the
    reference's both end at `result` of the arguments. -/
theorem algebraic : Cert.algebraic_KernelIdeal_ReferenceIdeal := by
  intro m ρ m' ρ' _ hagree
  refine ⟨fun c => Cert.Despike.KernelSide.out m c, Cert.Despike.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Despike.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
